-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x1 .f32) (main_arg5 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S5000x128 : Shape := ⟨2, ![5000, 128]⟩
abbrev S800000x128 : Shape := ⟨2, ![800000, 128]⟩
abbrev S5000x1 : Shape := ⟨2, ![5000, 1]⟩

abbrev nBuf : Space → Nat
  | .hbm => 117
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S_, .f32⟩
  | .hbm, ⟨21, _⟩ => ⟨S800000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S800000x1, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x128, .f32⟩
  | .hbm, ⟨67, _⟩ => ⟨S50000x1, .f32⟩
  | .hbm, ⟨68, _⟩ => ⟨S50000, .f32⟩
  | .hbm, ⟨69, _⟩ => ⟨S800000, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000, .f32⟩
  | .hbm, ⟨79, _⟩ => ⟨S800000, .f32⟩
  | .hbm, ⟨80, _⟩ => ⟨S_, .f32⟩
  | .hbm, ⟨81, _⟩ => ⟨S50000, .f32⟩
  | .hbm, ⟨82, _⟩ => ⟨S800000x1, .i32⟩
  | .hbm, ⟨83, _⟩ => ⟨S50000, .f32⟩
  | .hbm, ⟨84, _⟩ => ⟨S50000, .f32⟩
  | .hbm, ⟨85, _⟩ => ⟨S50000, .f32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000, .f32⟩
  | .hbm, ⟨108, _⟩ => ⟨S800000, .f32⟩
  | .hbm, ⟨109, _⟩ => ⟨S800000, .f32⟩
  | .hbm, ⟨110, _⟩ => ⟨S800000, .f32⟩
  | .hbm, ⟨111, _⟩ => ⟨S_, .f32⟩
  | .hbm, ⟨112, _⟩ => ⟨S800000, .f32⟩
  | .hbm, ⟨113, _⟩ => ⟨S800000, .f32⟩
  | .hbm, ⟨114, _⟩ => ⟨S_, .f32⟩
  | .hbm, ⟨115, _⟩ => ⟨S800000, .f32⟩
  | .hbm, ⟨116, _⟩ => ⟨S800000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_13 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_15 : Ref sig .tc := ⟨.hbm, 99, rfl⟩
abbrev main_v76 : Ref sig .tc := ⟨.hbm, 100, rfl⟩
abbrev main_v77 : Ref sig .tc := ⟨.hbm, 101, rfl⟩
abbrev main_c_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_17 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  shapeCasts_S50000x1_S50000 : S50000x1.ShapeCasts S50000
  shapeCasts_S800000x1_S800000 : S800000x1.ShapeCasts S800000
  shapeCasts_S1_S_ : S1.ShapeCasts S_
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x1, .f32⟩
  | 5 => ⟨S1, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x1, .f32⟩
  | 75 => ⟨S_, .f32⟩
  | 76 => ⟨S50000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S_, .f32⟩
  | 86 => ⟨S800000, .f32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x1, .f32⟩
  | 120 => ⟨S800000x1, .f32⟩
  | 121 => ⟨S800000x1, .f32⟩
  | 122 => ⟨S_, .f32⟩
  | 123 => ⟨S50000x1, .f32⟩
  | 124 => ⟨S800000x1, .i32⟩
  | 125 => ⟨S50000x1, .f32⟩
  | 126 => ⟨S50000, .f32⟩
  | 127 => ⟨S50000x1, .f32⟩
  | _ => ⟨S50000x128, .f32⟩

abbrev hbmTy0_1 (i : Nat) : BufTy := match i % 128 with
  | 0 => ⟨S50000x1, .f32⟩
  | 1 => ⟨S50000x1, .f32⟩
  | 2 => ⟨S1x1, .f32⟩
  | 3 => ⟨S50000x1, .f32⟩
  | 4 => ⟨S50000x1, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x1, .f32⟩
  | 23 => ⟨S800000x1, .f32⟩
  | 24 => ⟨S_, .f32⟩
  | 25 => ⟨S800000, .f32⟩
  | 26 => ⟨S800000, .f32⟩
  | 27 => ⟨S800000, .f32⟩
  | 28 => ⟨S_, .f32⟩
  | 29 => ⟨S800000, .f32⟩
  | 30 => ⟨S800000, .f32⟩
  | 31 => ⟨S_, .f32⟩
  | 32 => ⟨S800000, .f32⟩
  | 33 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_21 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_22 : Ref sig .tc := ⟨.hbm, 133, rfl⟩
abbrev main_v101 : Ref sig .tc := ⟨.hbm, 134, rfl⟩
abbrev main_v102 : Ref sig .tc := ⟨.hbm, 135, rfl⟩
abbrev main_c_23 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_24 : Ref sig .tc := ⟨.hbm, 142, rfl⟩
abbrev main_v108 : Ref sig .tc := ⟨.hbm, 143, rfl⟩
abbrev main_v109 : Ref sig .tc := ⟨.hbm, 144, rfl⟩
abbrev main_c_25 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_26 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_27 : Ref sig .tc := ⟨.hbm, 156, rfl⟩
abbrev main_v119 : Ref sig .tc := ⟨.hbm, 157, rfl⟩
abbrev main_v120 : Ref sig .tc := ⟨.hbm, 158, rfl⟩
abbrev main_cst_28 : Ref sig .tc := ⟨.hbm, 159, rfl⟩
abbrev main_v121 : Ref sig .tc := ⟨.hbm, 160, rfl⟩
abbrev main_v122 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S800000x1_S800000_d1 : S800000x1.ReducesTo [1] S800000
  h_S_ : 0 < S_.numel
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KernelRun.lean ====
/-
  The whole program run once more, now keeping the result. Every weakly fair execution of the program — host
  operations, the product over ten row blocks, more host operations, the combine over ten row blocks, the last host
  operations — ends with the result buffer holding the last stretch's fold of the buffer contents the second region
  leaves, and with the six argument arrays as they were launched. The contents at each boundary are the folds the
  frame names W1 … W5; the run reads the final memory against the last of them at the result's buffer.
-/
import proofs.«166927_j48859547959538_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run with its result: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v89) = W5 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v89 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«166927_j48859547959538_2_alg».proof.Proof.LibMatmulPlain
import proofs.«166927_j48859547959538_2_alg».proof.Proof.LibDotsNT
import proofs.«166927_j48859547959538_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.VectorLayer.lean ====
/-
  The second layer of the network and the decoding of the edges, as the kernel's program spells them: on VECTORS.
  The second weight matrix has one column, so the hidden array h = z W has one column; the program reshapes it to a
  vector and from there works on vectors of 50000 node entries and 800000 edge entries:
    msg(e)  = h(s(e)) * w(e)                          s(e), d(e) the edge's end points, w(e) its weight
    agg(n)  = the sum of msg(e) over the edges e whose destination is n
    z(n)    = (agg(n) + h(n) * q(n)) + b              q the squared normalisation, b the bias
    out(e)  = 1 / (1 + exp (-(z(s(e)) * z(d(e)))))
  A row number may be negative, counted from the end of the array: it is then taken 50000 higher before it is used to
  gather (a scatter takes the raw number and drops what is out of range).
-/
import proofs.«166927_j48859547959538_2_alg».proof.Proof.Gen.KernelIdeal
import Idealize.ShloMosaic.PureOps.Ideal

noncomputable section

namespace Cert.KernelIdeal.VectorLayer

open Cert.KernelIdeal Cert.KernelIdeal.Gen Idealize.ShloMosaic

/-- A vector of row numbers laid out as a column, each negative one first taken 50000 higher. -/
def wrap (v : (⟨S800000, .i32⟩ : BufTy).Contents (Elt Ideal)) : (⟨S800000x1, .i32⟩ : BufTy).Contents (Elt Ideal) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The hidden array z W, which has one column, reshaped to a vector. -/
def hidden (Z : (⟨S50000x128, .f32⟩ : BufTy).Contents (Elt Ideal)) (W : (⟨S128x1, .f32⟩ : BufTy).Contents (Elt Ideal)) : (⟨S50000, .f32⟩ : BufTy).Contents (Elt Ideal) :=
  shapeCast S50000 (Host.dotGeneral (F := Ideal) (φ₁ := .f32) (φ₂ := .f32) dot_S50000x128_S128x1_S50000x1_1_0_0_1_n_n none Z W) shapeCasts_S50000x1_S50000

/-- The layer's result on the nodes: the aggregated messages, the node's own contribution and the bias. -/
def layer (Z : (⟨S50000x128, .f32⟩ : BufTy).Contents (Elt Ideal)) (W : (⟨S128x1, .f32⟩ : BufTy).Contents (Elt Ideal)) (src dst : (⟨S800000, .i32⟩ : BufTy).Contents (Elt Ideal))
    (nrm : (⟨S800000x1, .f32⟩ : BufTy).Contents (Elt Ideal)) (dcol : (⟨S50000x1, .f32⟩ : BufTy).Contents (Elt Ideal)) (b : (⟨S1, .f32⟩ : BufTy).Contents (Elt Ideal)) : (⟨S50000, .f32⟩ : BufTy).Contents (Elt Ideal) :=
  addf
    (addf
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (mulf (Host.gather gather_S50000_S800000x1_S800000_n_0_n_n_0_1_1 (hidden Z W) (wrap src))
          (shapeCast S800000 nrm shapeCasts_S800000x1_S800000)))
      (mulf (hidden Z W) (shapeCast S50000 dcol shapeCasts_S50000x1_S50000)))
    (broadcastInDim S50000 ![] bcast_S_S50000 (shapeCast S_ b shapeCasts_S1_S_))

/-- The decoded edges: the logistic function of the product of the layer's results at the edge's two end points. -/
def decode (Z : (⟨S50000x128, .f32⟩ : BufTy).Contents (Elt Ideal)) (W : (⟨S128x1, .f32⟩ : BufTy).Contents (Elt Ideal)) (src dst : (⟨S800000, .i32⟩ : BufTy).Contents (Elt Ideal))
    (nrm : (⟨S800000x1, .f32⟩ : BufTy).Contents (Elt Ideal)) (dcol : (⟨S50000x1, .f32⟩ : BufTy).Contents (Elt Ideal)) (b : (⟨S1, .f32⟩ : BufTy).Contents (Elt Ideal)) : (⟨S800000, .f32⟩ : BufTy).Contents (Elt Ideal) :=
  Host.divf (F := Ideal) (broadcastInDim S800000 ![] bcast_S_S800000 (constant (F := Ideal) S_ .f32 0x3F800000#32))
    (addf (broadcastInDim S800000 ![] bcast_S_S800000 (constant (F := Ideal) S_ .f32 0x3F800000#32))
      (Host.exp (F := Ideal) (Host.negf (F := Ideal)
        (mulf
          (Host.gather gather_S50000_S800000x1_S800000_n_0_n_n_0_1_1 (layer Z W src dst nrm dcol b) (wrap src))
          (Host.gather gather_S50000_S800000x1_S800000_n_0_n_n_0_1_1 (layer Z W src dst nrm dcol b) (wrap dst))))))

end Cert.KernelIdeal.VectorLayer

end
-- ==== Proof.LibColumnLayouts.lean ====
/-
  Two layout operations read at an entry.

  A column `[a, 1]` spread along the rows of `[a, b]` reads, at entry `(p, c)`, the column's entry `(p, 0)`. A vector
  `[n]` viewed as the one-row matrix `[1, n]` reads, at entry `(0, q)`, the vector's entry `q`.
-/
import Idealize.ShloMosaic.Lib.Pipeline.Value
import Idealize.ShloMosaic.Lib.ValueIdx

namespace Cert.KernelIdeal.Pay

open Idealize.ShloMosaic Idealize.ShloMosaic.ValueIdx

/-- A column `[a, 1]` broadcast along the rows of `[a, b]`: entry `(p, c)` reads the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[n]` viewed as the one-row matrix `[1, n]`: entry `(0, q)` reads the vector's entry `q`. -/
theorem shapeCast_n_1n_apply {α : Type} {n : ℕ} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) := by
  refine shapeCast_apply v h (ix2 (0 : Fin 1) q) (ix1 q) ?_
  rewrite [Shape.rowMajor_val_two, Shape.rowMajor_val_one]
  show q.val = 0 * n + q.val
  omega

end Cert.KernelIdeal.Pay
-- ==== Proof.ProductArray.lean ====
/-
  The product array.

  Ten grid points each take a block of 5000 rows of a [50000, 128] array X and the whole of a [128, 128] matrix W,
  and write the product of the two into the same 5000 rows of the result.  Entry (p, q) of the product of a block
  depends on row p of the block and on column q of W only, and row p of block number b is row 5000 b + p of X.  So
  the ten blocks written back are the ten blocks of ONE array, the product X W, entry (r, q) of which is the sum
  over k of X(r, k) * W(k, q); and since the ten blocks of rows fill the 50000 rows, the result IS that product.
-/
import proofs.«166927_j48859547959538_2_alg».proof.Proof.Gen.KernelIdeal.Frame
import proofs.«166927_j48859547959538_2_alg».proof.Proof.LibDenseLayer
import proofs.«166927_j48859547959538_2_alg».proof.Proof.LibColumnLayouts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProductArray

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

section Blocks

variable (V : (c : Dev nD) → (b : Ref sig .tc) → Buf (Elt Ideal) ((c : Thread nD τ).loc b))

/-- The offsets (0, 0) of a whole-block access, as the constant function. -/
theorem zero_offsets : (![0, 0] : Fin 2 → Nat) = fun _ => 0 := funext fun a => by fin_cases a <;> rfl

/-- What the body computes from a [5000, 128] block x0 and the [128, 128] matrix x1: their product, entry (p, q) the
    sum over k of x0(p, k) * x1(k, q) (rounding the operands to bfloat16 does nothing to an extended real, and the
    accumulator starts at zero). -/
theorem tile_product (x0 : Vec Ideal S5000x128 .f32) (x1 : Vec Ideal S128x128 .f32) :
    k0_pay1 x0 x1 = Cert.Dense.prod x0 x1 := by
  unfold k0_pay1
  exact Cert.Dense.matmul_eq_prod dot_S5000x128_S128x128_S5000x128_1_0_0_1_n_n rfl rfl rfl rfl rfl rfl x0 x1 bitsLt_bf16_f32

/-- The block numbers at a grid point: the block of X has the row-block number of the output's block and column-block
    0; the matrix W is its one block (0, 0); the output's column-block is 0 and its row-block is one of 0 .. 9. -/
theorem block_indices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row-blocks of the output is the block of some grid point. -/
theorem every_block_row : ∀ r : Fin 10, ∃ t : Fin cfg0.N, win0_2.index t = ![r.val, 0] :=
  (by decide +kernel : ∀ r : Fin 10, ∃ t : Fin grid0.N, win0_2.index t = ![r.val, 0])

/-- What a grid point writes back is its block of the product X W.  Entry (p, q) of the block with row-block number b
    is the sum over k of X(5000 b + p, k) * W(k, q) on both sides: the block of X is read at row 5000 b + p, column
    0 + k, and W at row 0 + k, column 0 + q. -/
theorem written_block (c : Dev nD) (t : Fin cfg0.N) :
    (dat0 (F := Ideal) V c).flushed 2 t
      = ((cfg0.win 2).blk t).view.read (Elt Ideal) (Cert.Dense.prod (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  rw [tile_product]
  obtain ⟨e0, e1, e2, e3, e4, e5⟩ := block_indices t
  refine funext fun (j : S5000x128.Idx) => ?_
  obtain ⟨p, q, rfl⟩ : ∃ (p : Fin 5000) (q : Fin 128), j = ix2 p q := ⟨j 0, j 1, eq_ix2 j⟩
  have hrow : win0_2.index t (0 : Fin 2) * 5000 + p.val < 50000 := by have := p.isLt; omega
  show Cert.Dense.prod (a := 5000) (k := 128) (n := 128) (iblk0 V c 0 t) (iblk0 V c 1 t) (ix2 p q)
     = Cert.Dense.prod (a := 50000) (k := 128) (n := 128) (V c main_arg0) (V c main_arg2) (((cfg0.win 2).blk t).view.emb (ix2 p q))
  -- the output block's entry (p, q) sits at row 5000 b + p, column q of the array
  have hO : ((cfg0.win 2).blk t).view.emb (ix2 p q) = ix2 (⟨win0_2.index t (0 : Fin 2) * 5000 + p.val, hrow⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [hO, Cert.Dense.prod_ix2, Cert.Dense.prod_ix2]
  refine Finset.sum_congr rfl fun k _ => ?_
  -- the block of X at (p, k) is X at (5000 b + p, k)
  have h0 : iblk0 V c 0 t (ix2 p k) = V c main_arg0 (ix2 (⟨win0_2.index t (0 : Fin 2) * 5000 + p.val, hrow⟩ : Fin 50000) k) := by
    show V c main_arg0 (((cfg0.win 0).blk t).view.emb (ix2 p k)) = _
    refine congrArg _ ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  -- the one block of W at (k, q) is W at (k, q)
  have h1 : iblk0 V c 1 t (ix2 k q) = V c main_arg2 (ix2 k q) := by
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An entry of the array is in a grid point's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every entry (r, q) of the array is in the block of the grid point whose row-block number is r / 5000. -/
theorem rows_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_block_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Blocks

/-- After the ten grid points the result array is the product X W of the two input arrays as the region found them. -/
theorem product_array (V : (c : Dev nD) → (b : Ref sig .tc) → Buf (Elt Ideal) ((c : Thread nD τ).loc b)) (c : Dev nD) :
    (dat0 (F := Ideal) V c).arrAt 2 cfg0.N = Cert.Dense.prod (V c main_arg0) (V c main_arg2) :=
  (dat0 V c).arrAt_eq_of_cover 2 (Cert.Dense.prod (V c main_arg0) (V c main_arg2)) (fun t _ => written_block V c t) rows_covered

end Cert.KernelIdeal.ProductArray

end
-- ==== Proof.CombineArray.lean ====
/-
  The combined array.

  Ten grid points each take the same block of 5000 rows of two [50000, 128] arrays A and H and of a [50000, 1] column
  S, and the whole of a [1, 128] row B, and write into the same 5000 rows of the result, entry by entry,
  max((A(p, q) + H(p, q) * S(p, 0)) + B(0, q), 0).  Entry (p, q) of a block depends on row p of the three blocks and
  on column q of B only, and row p of block number b is row 5000 b + p of the arrays.  So the ten blocks written back
  are the ten blocks of ONE array, max((A + H * S spread over the columns) + B spread over the rows, 0); and since the
  ten blocks of rows fill the 50000 rows, the result IS that array.  It is stated below in the spelling with
  broadcast_in_dim, which reads the same entries: a column laid over [50000, 128] reads its row's entry, a row its
  column's entry, and a scalar its one entry.
-/
import proofs.«166927_j48859547959538_2_alg».proof.Proof.Gen.KernelIdeal.Frame
import proofs.«166927_j48859547959538_2_alg».proof.Proof.LibDenseLayer
import proofs.«166927_j48859547959538_2_alg».proof.Proof.LibColumnLayouts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CombineArray

open Cert.KernelIdeal Cert.KernelIdeal.Gen Idealize.ShloMosaic Idealize.ShloMosaic.TcCoe Idealize.SL.Sem
open Idealize.ShloMosaic.Pipeline (Dat)
open Idealize.ShloMosaic.ValueIdx

/-- The offsets (0, 0) of a whole-block access, as the constant function. -/
theorem zero_offsets : (![0, 0] : Fin 2 → Nat) = fun _ => 0 := funext fun a => by fin_cases a <;> rfl

/-- The block's spelling read at entry (p, q): each operand cast to its own shape (the identity), the column S spread
    over the columns reads S(p, 0), the row B spread over the rows reads B(0, q), the spread scalar z reads z, and the
    sums, the product and the maximum are taken entry by entry. -/
theorem tile_form_entry (A H : FVec Ideal S5000x128 .f32) (S : FVec Ideal S5000x1 .f32) (B : FVec Ideal S1x128 .f32)
    (hA : S5000x128.ShapeCasts S5000x128) (hSc : S5000x1.ShapeCasts S5000x1) (hSb : S5000x1.Broadcasts S5000x128)
    (hBc : S1x128.ShapeCasts S1x128) (hBb : S1x128.Broadcasts S5000x128) (z : Ideal .f32) (p : Fin 5000) (q : Fin 128) :
    maximumf (addf (addf (shapeCast S5000x128 A hA) (mulf (shapeCast S5000x128 H hA)
          (broadcastTo S5000x128 (shapeCast S5000x1 (shapeCast S5000x1 S hSc) hSc) hSb)))
        (broadcastTo S5000x128 (shapeCast S1x128 (shapeCast S1x128 B hBc) hBc) hBb)) (broadcast S5000x128 z) (ix2 p q)
      = max ((A (ix2 p q) + H (ix2 p q) * S (ix2 p (0 : Fin 1))) + B (ix2 (0 : Fin 1) q)) z := by
  rw [maximumf_apply, broadcast_apply, Cert.Dense.tile_biased, addf_apply, mulf_apply,
    Cert.KernelIdeal.Pay.broadcastTo_a1_ab_apply, shapeCast_self, shapeCast_self, shapeCast_self, shapeCast_self, shapeCast_self]

/-- What the body computes from the blocks x0 of A, x1 of H, x2 of S and the row x3, at entry (p, q):
    max((x0(p, q) + x1(p, q) * x2(p, 0)) + x3(0, q), 0). -/
theorem tile_entry (x2 : Vec Ideal S5000x1 .f32) (x3 : Vec Ideal S1x128 .f32) (x0 x1 : Vec Ideal S5000x128 .f32)
    (p : Fin 5000) (q : Fin 128) :
    k1_pay1 x2 x3 x0 x1 (ix2 p q)
      = max ((x0 (ix2 p q) + x1 (ix2 p q) * x2 (ix2 p (0 : Fin 1))) + x3 (ix2 (0 : Fin 1) q)) (Ideal.ofBits .f32 0x00000000#32) :=
  tile_form_entry x0 x1 x2 x3 _ _ _ _ _ _ p q

/-- The whole-array spelling with broadcast_in_dim read at entry (r, q):
    max((A(r, q) + H(r, q) * S(r, 0)) + B(0, q), 0). -/
theorem host_entry (A H : FVec Ideal S50000x128 .f32) (S : FVec Ideal S50000x1 .f32) (B : FVec Ideal S1x128 .f32)
    (hS : S50000x1.BroadcastsInDim S50000x128 ![0, 1]) (hB : S1x128.BroadcastsInDim S50000x128 ![0, 1]) (hZ : S_.BroadcastsInDim S50000x128 ![])
    (r : Fin 50000) (q : Fin 128) :
    maximumf (addf (addf A (mulf H (broadcastInDim S50000x128 ![0, 1] hS S))) (broadcastInDim S50000x128 ![0, 1] hB B))
        (broadcastInDim S50000x128 ![] hZ (constant (F := Ideal) S_ .f32 0x00000000#32)) (ix2 r q)
      = max ((A (ix2 r q) + H (ix2 r q) * S (ix2 r (0 : Fin 1))) + B (ix2 (0 : Fin 1) q)) (Ideal.ofBits .f32 0x00000000#32) := by
  rw [maximumf_apply, Cert.Dense.host_biased, addf_apply, mulf_apply, Cert.Dense.bcast_col_apply,
    broadcastInDim_apply ![] hZ _ (ix2 r q) ix0 (fun a => a.elim0), constant_apply]

/-- The block numbers at a grid point: the blocks of A, H and S have the row-block number of the output's block and
    column-block 0; the row B is its one block (0, 0); the output's column-block is 0 and its row-block is one of
    0 .. 9. -/
theorem block_indices : ∀ t : Fin cfg1.N,
    win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 9 :=
  (by decide +kernel : ∀ t : Fin grid1.N, _)

/-- Every one of the ten row-blocks of the output is the block of some grid point. -/
theorem every_block_row : ∀ r : Fin 10, ∃ t : Fin cfg1.N, win1_4.index t = ![r.val, 0] :=
  (by decide +kernel : ∀ r : Fin 10, ∃ t : Fin grid1.N, win1_4.index t = ![r.val, 0])

section Blocks

variable (V : (c : Dev nD) → (b : Ref sig .tc) → Buf (Elt Ideal) ((c : Thread nD τ).loc b))

/-- What a grid point writes back is its block of the combined array.  Entry (p, q) of the block with row-block
    number b is max((A(5000 b + p, q) + H(5000 b + p, q) * S(5000 b + p, 0)) + B(0, q), 0) on both sides: the blocks of
    A and H are read at row 5000 b + p, column 0 + q, the block of S at row 5000 b + p, column 0, and B at row 0,
    column 0 + q. -/
theorem written_block (c : Dev nD)
    (hS : S50000x1.BroadcastsInDim S50000x128 ![0, 1]) (hB : S1x128.BroadcastsInDim S50000x128 ![0, 1]) (hZ : S_.BroadcastsInDim S50000x128 ![])
    (t : Fin cfg1.N) :
    (dat1 (F := Ideal) V c).flushed 4 t
      = ((cfg1.win 4).blk t).view.read (Elt Ideal)
          (maximumf (addf (addf (V c main_v47) (mulf (V c main_v35) (broadcastInDim S50000x128 ![0, 1] hS (V c main_v17))))
               (broadcastInDim S50000x128 ![0, 1] hB (V c main_v34)))
             (broadcastInDim S50000x128 ![] hZ (constant (F := Ideal) S_ .f32 0x00000000#32))) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨e0, e1, e2, e3, e4, e5, e6, e7, e8, e9⟩ := block_indices t
  refine funext fun (j : S5000x128.Idx) => ?_
  obtain ⟨p, q, rfl⟩ : ∃ (p : Fin 5000) (q : Fin 128), j = ix2 p q := ⟨j 0, j 1, eq_ix2 j⟩
  have hrow : win1_4.index t (0 : Fin 2) * 5000 + p.val < 50000 := by have := p.isLt; omega
  show k1_pay1 (iblk1 V c 2 t) (iblk1 V c 3 t) (iblk1 V c 0 t) (iblk1 V c 1 t) (ix2 p q)
     = (maximumf (addf (addf (V c main_v47) (mulf (V c main_v35) (broadcastInDim S50000x128 ![0, 1] hS (V c main_v17))))
               (broadcastInDim S50000x128 ![0, 1] hB (V c main_v34)))
             (broadcastInDim S50000x128 ![] hZ (constant (F := Ideal) S_ .f32 0x00000000#32))) (((cfg1.win 4).blk t).view.emb (ix2 p q))
  have hO : ((cfg1.win 4).blk t).view.emb (ix2 p q) = ix2 (⟨win1_4.index t (0 : Fin 2) * 5000 + p.val, hrow⟩ : Fin 50000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 128 + 1 * q.val = q.val; omega
  rw [hO]
  refine Eq.trans ?_ (host_entry (V c main_v47) (V c main_v35) (V c main_v17) (V c main_v34) hS hB hZ _ q).symm
  refine (tile_entry _ _ _ _ p q).trans ?_
  have hA : iblk1 V c 0 t (ix2 p q) = V c main_v47 (ix2 (⟨win1_4.index t (0 : Fin 2) * 5000 + p.val, hrow⟩ : Fin 50000) q) := by
    show V c main_v47 (((cfg1.win 0).blk t).view.emb (ix2 p q)) = _
    refine congrArg _ ?_
    funext a; apply Fin.ext
    match a with
    | ⟨0, _⟩ => show win1_0.index t (0 : Fin 2) * 5000 + 1 * p.val = win1_4.index t (0 : Fin 2) * 5000 + p.val; omega
    | ⟨1, _⟩ => show win1_0.index t (1 : Fin 2) * 128 + 1 * q.val = q.val; omega
  have hH : iblk1 V c 1 t (ix2 p q) = V c main_v35 (ix2 (⟨win1_4.index t (0 : Fin 2) * 5000 + p.val, hrow⟩ : Fin 50000) q) := by
    show V c main_v35 (((cfg1.win 1).blk t).view.emb (ix2 p q)) = _
    refine congrArg _ ?_
    funext a; apply Fin.ext
    match a with
    | ⟨0, _⟩ => show win1_1.index t (0 : Fin 2) * 5000 + 1 * p.val = win1_4.index t (0 : Fin 2) * 5000 + p.val; omega
    | ⟨1, _⟩ => show win1_1.index t (1 : Fin 2) * 128 + 1 * q.val = q.val; omega
  have hSS : iblk1 V c 2 t (ix2 p (0 : Fin 1)) = V c main_v17 (ix2 (⟨win1_4.index t (0 : Fin 2) * 5000 + p.val, hrow⟩ : Fin 50000) (0 : Fin 1)) := by
    show V c main_v17 (((cfg1.win 2).blk t).view.emb (ix2 p (0 : Fin 1))) = _
    refine congrArg _ ?_
    funext a; apply Fin.ext
    match a with
    | ⟨0, _⟩ => show win1_2.index t (0 : Fin 2) * 5000 + 1 * p.val = win1_4.index t (0 : Fin 2) * 5000 + p.val; omega
    | ⟨1, _⟩ => show win1_2.index t (1 : Fin 2) * 1 + 1 * 0 = 0; omega
  have hBB : iblk1 V c 3 t (ix2 (0 : Fin 1) q) = V c main_v34 (ix2 (0 : Fin 1) q) := by
    show V c main_v34 (((cfg1.win 3).blk t).view.emb (ix2 (0 : Fin 1) q)) = _
    refine congrArg _ ?_
    funext a; apply Fin.ext
    match a with
    | ⟨0, _⟩ => show win1_3.index t (0 : Fin 2) * 1 + 1 * 0 = 0; omega
    | ⟨1, _⟩ => show win1_3.index t (1 : Fin 2) * 128 + 1 * q.val = q.val; omega
  rw [hA, hH, hSS, hBB]

/-- An entry of the array is in a grid point's block iff each coordinate is in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v48).slice (win1_4.rect t)).set ↔ _
  rw [View.set_slice_whole, Rect.mem_set_unit]
  exact Iff.rfl

/-- Every entry (r, q) of the array is in the block of the grid point whose row-block number is r / 5000. -/
theorem rows_covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := every_block_row ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

end Blocks

/-- After the ten grid points the result array is max((A + H * S) + B, 0), S laid over the columns, B over the rows and
    the zero over all entries, of the four input arrays as the region found them. -/
theorem combine_array (V : (c : Dev nD) → (b : Ref sig .tc) → Buf (Elt Ideal) ((c : Thread nD τ).loc b)) (c : Dev nD)
    (hS : S50000x1.BroadcastsInDim S50000x128 ![0, 1]) (hB : S1x128.BroadcastsInDim S50000x128 ![0, 1]) (hZ : S_.BroadcastsInDim S50000x128 ![]) :
    (dat1 (F := Ideal) V c).arrAt 4 cfg1.N
      = maximumf (addf (addf (V c main_v47) (mulf (V c main_v35) (broadcastInDim S50000x128 ![0, 1] hS (V c main_v17))))
            (broadcastInDim S50000x128 ![0, 1] hB (V c main_v34)))
          (broadcastInDim S50000x128 ![] hZ (constant (F := Ideal) S_ .f32 0x00000000#32)) :=
  (dat1 V c).arrAt_eq_of_cover 4 _ (fun t _ => written_block V c hS hB hZ t) rows_covered

end Cert.KernelIdeal.CombineArray

end
-- ==== Proof.Boundaries.lean ====
/-
  What the kernel's program holds at each boundary between its host stretches and its two regions, read back to the six
  argument arrays. The buffers the later stretches use are, one by one, the reference's own stages of the same
  arguments: the index vectors, the normalisation and the edge weights before the first region; the product x W1 the first
  region leaves; the aggregated messages of the stretch after it; the rectified layer max((agg + h q) + b, 0) the second
  region leaves. The last stretch then is the width-one layer on vectors and the decoding of the edges from those values.
  A buffer no operation of a stretch writes and no region owns keeps its contents across it.
-/
import proofs.«166927_j48859547959538_2_alg».proof.Proof.Gen.KernelIdeal.Frame
import proofs.«166927_j48859547959538_2_alg».proof.Proof.Gen.ReferenceIdeal.Read
import proofs.«166927_j48859547959538_2_alg».proof.Proof.LibDenseLayer
import proofs.«166927_j48859547959538_2_alg».proof.Proof.VectorLayer
import proofs.«166927_j48859547959538_2_alg».proof.Proof.ProductArray
import proofs.«166927_j48859547959538_2_alg».proof.Proof.CombineArray
import Idealize.ShloMosaic.Lib.StableHlo.Run

set_option maxRecDepth 16384

noncomputable section

namespace Cert.KernelIdeal.Boundaries

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region

  The host operations before the first region, read at the buffers later stretches use: the two index vectors, the squared
  normalisation laid out as a column, the edge weights laid out as a column, the bias laid out as a row. Each is the
  reference's own stage of the same name; a reshape that adds a unit axis is the broadcast along the other axis. -/

theorem w1_v1 : W1 m ρ c (Proc.devRef .tc main_v1) = val_main_v1 (F := Ideal) (m ((c : Thread nD τ).loc main_arg1)) := by
  dsimp only [W1, hostOps0]
  after_results_simp
  rfl

theorem w1_v3 : W1 m ρ c (Proc.devRef .tc main_v3) = val_main_v3 (F := Ideal) (m ((c : Thread nD τ).loc main_arg1)) := by
  dsimp only [W1, hostOps0]
  after_results_simp
  rfl

theorem w1_v17 : W1 m ρ c (Proc.devRef .tc main_v17) = val_main_v46 (F := Ideal) (m ((c : Thread nD τ).loc main_arg1)) := by
  dsimp only [W1, hostOps0]
  after_results_simp
  unfold val_main_v46
  exact Cert.Dense.column_cast_eq_bcast (a := 50000) _ _ _

theorem w1_v33 : W1 m ρ c (Proc.devRef .tc main_v33) = val_main_v39 (F := Ideal) (m ((c : Thread nD τ).loc main_arg1)) := by
  dsimp only [W1, hostOps0]
  after_results_simp
  unfold val_main_v39
  exact Cert.Dense.column_cast_eq_bcast (a := 800000) _ _ _

theorem w1_v34 : W1 m ρ c (Proc.devRef .tc main_v34) = val_main_v50 (F := Ideal) (m ((c : Thread nD τ).loc main_arg3)) := by
  dsimp only [W1, hostOps0]
  after_results_simp
  unfold val_main_v50
  exact Cert.Dense.row_cast_eq_bcast (n := 128) _ _ _

theorem w1_arg0 : W1 m ρ c (Proc.devRef .tc main_arg0) = (m ((c : Thread nD τ).loc main_arg0)) := by
  dsimp only [W1, hostOps0]
  after_results_simp
theorem w1_arg2 : W1 m ρ c (Proc.devRef .tc main_arg2) = (m ((c : Thread nD τ).loc main_arg2)) := by
  dsimp only [W1, hostOps0]
  after_results_simp
theorem w1_arg4 : W1 m ρ c (Proc.devRef .tc main_arg4) = (m ((c : Thread nD τ).loc main_arg4)) := by
  dsimp only [W1, hostOps0]
  after_results_simp
theorem w1_arg5 : W1 m ρ c (Proc.devRef .tc main_arg5) = (m ((c : Thread nD τ).loc main_arg5)) := by
  dsimp only [W1, hostOps0]
  after_results_simp

/-! ## The first region and the stretch after it

  The first region leaves the product x W1 in its output array and touches nothing else; the stretch after it gathers
  the product's rows at the edges' sources, weighs them and adds them into the destinations' rows: the reference's
  aggregated messages, since every operand is the reference's. -/

theorem w2_v35 :
    W2 m ρ c (Proc.devRef .tc main_v35) = val_main_v4 (F := Ideal) (m ((c : Thread nD τ).loc main_arg0)) (m ((c : Thread nD τ).loc main_arg2)) := by
  refine (W2_arr m ρ c 2).trans ?_
  rw [Cert.KernelIdeal.ProductArray.product_array (V1 m ρ) c]
  dsimp only [V1]
  rw [w1_arg0, w1_arg2]
  unfold val_main_v4
  exact (Cert.Dense.dotGeneral_eq_prod _ rfl rfl rfl rfl rfl rfl _ _).symm

theorem w3_v47 :
    W3 m ρ c (Proc.devRef .tc main_v47) = val_main_v44 (F := Ideal) (m ((c : Thread nD τ).loc main_arg0)) (m ((c : Thread nD τ).loc main_arg1)) (m ((c : Thread nD τ).loc main_arg2)) := by
  dsimp only [W3, hostOps1]
  after_results_simp
  rw [w2_v35, W2_of_ne m ρ c main_v1 (by decide), W2_of_ne m ρ c main_v3 (by decide), W2_of_ne m ρ c main_v33 (by decide),
    w1_v1, w1_v3, w1_v33]
  rfl

theorem w3_v35 : W3 m ρ c (Proc.devRef .tc main_v35) = W2 m ρ c (Proc.devRef .tc main_v35) := by
  dsimp only [W3, hostOps1]
  after_results_simp
theorem w3_v17 : W3 m ρ c (Proc.devRef .tc main_v17) = val_main_v46 (F := Ideal) (m ((c : Thread nD τ).loc main_arg1)) := by
  dsimp only [W3, hostOps1]
  after_results_simp
  rw [W2_of_ne m ρ c main_v17 (by decide), w1_v17]
theorem w3_v34 : W3 m ρ c (Proc.devRef .tc main_v34) = val_main_v50 (F := Ideal) (m ((c : Thread nD τ).loc main_arg3)) := by
  dsimp only [W3, hostOps1]
  after_results_simp
  rw [W2_of_ne m ρ c main_v34 (by decide), w1_v34]
theorem w3_v1 : W3 m ρ c (Proc.devRef .tc main_v1) = val_main_v1 (F := Ideal) (m ((c : Thread nD τ).loc main_arg1)) := by
  dsimp only [W3, hostOps1]
  after_results_simp
  rw [W2_of_ne m ρ c main_v1 (by decide), w1_v1]
theorem w3_v3 : W3 m ρ c (Proc.devRef .tc main_v3) = val_main_v3 (F := Ideal) (m ((c : Thread nD τ).loc main_arg1)) := by
  dsimp only [W3, hostOps1]
  after_results_simp
  rw [W2_of_ne m ρ c main_v3 (by decide), w1_v3]
theorem w3_v33 : W3 m ρ c (Proc.devRef .tc main_v33) = val_main_v39 (F := Ideal) (m ((c : Thread nD τ).loc main_arg1)) := by
  dsimp only [W3, hostOps1]
  after_results_simp
  rw [W2_of_ne m ρ c main_v33 (by decide), w1_v33]
theorem w3_arg4 : W3 m ρ c (Proc.devRef .tc main_arg4) = (m ((c : Thread nD τ).loc main_arg4)) := by
  dsimp only [W3, hostOps1]
  after_results_simp
  rw [W2_of_ne m ρ c main_arg4 (by decide), w1_arg4]
theorem w3_arg5 : W3 m ρ c (Proc.devRef .tc main_arg5) = (m ((c : Thread nD τ).loc main_arg5)) := by
  dsimp only [W3, hostOps1]
  after_results_simp
  rw [W2_of_ne m ρ c main_arg5 (by decide), w1_arg5]

/-! ## The second region and the last stretch

  The second region leaves max((agg + h * q) + b, 0) in its output array: the reference's rectified first layer. The last
  stretch is the width-one layer on vectors and the decoding of the edges, from that array. -/

theorem w4_v48 :
    W4 m ρ c (Proc.devRef .tc main_v48) = val_main_v53 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  rw [Cert.KernelIdeal.CombineArray.combine_array (V3 m ρ) c Cert.ReferenceIdeal.Gen.bcast_S50000x1_S50000x128_0_1 Cert.ReferenceIdeal.Gen.bcast_S1x128_S50000x128_0_1
    Cert.ReferenceIdeal.Gen.bcast_S_S50000x128]
  dsimp only [V3]
  rw [w3_v47, w3_v35, w2_v35, w3_v17, w3_v34]
  unfold val_main_v53 val_main_v52 val_main_v49 val_main_v48 val_main_v47 val_main_v51 val_main_call0_v0 val_main_call0_cst
  rfl

theorem w5_v89 :
    W5 m ρ c (Proc.devRef .tc main_v89)
      = Cert.KernelIdeal.VectorLayer.decode (W4 m ρ c (Proc.devRef .tc main_v48)) (W4 m ρ c (Proc.devRef .tc main_arg4))
          (W4 m ρ c (Proc.devRef .tc main_v1)) (W4 m ρ c (Proc.devRef .tc main_v3)) (W4 m ρ c (Proc.devRef .tc main_v33))
          (W4 m ρ c (Proc.devRef .tc main_v17)) (W4 m ρ c (Proc.devRef .tc main_arg5)) := by
  dsimp only [W5, hostOps2]
  after_results_simp
  rfl

/-- The squared normalisation is one of the second region's input arrays: an input window's array ends as it was entered. -/
theorem w4_v17 : W4 m ρ c (Proc.devRef .tc main_v17) = W3 m ρ c (Proc.devRef .tc main_v17) :=
  (W4_arr m ρ c 2).trans (((dat1 (V3 m ρ) c).arrAt_in 2 rfl _).trans (A_eq1 (V3 m ρ) c 2))

/-- The result buffer at the end of the run: the width-one layer on vectors and the decoding, of the reference's rectified
    first layer, index vectors, edge weights and squared normalisation. -/
theorem result_eq :
    W5 m ρ c (Proc.devRef .tc main_v89)
      = Cert.KernelIdeal.VectorLayer.decode (val_main_v53 (F := Ideal) (m ((c : Thread nD τ).loc main_arg0)) (m ((c : Thread nD τ).loc main_arg1)) (m ((c : Thread nD τ).loc main_arg2)) (m ((c : Thread nD τ).loc main_arg3))) (m ((c : Thread nD τ).loc main_arg4)) (val_main_v1 (F := Ideal) (m ((c : Thread nD τ).loc main_arg1)))
          (val_main_v3 (F := Ideal) (m ((c : Thread nD τ).loc main_arg1))) (val_main_v39 (F := Ideal) (m ((c : Thread nD τ).loc main_arg1))) (val_main_v46 (F := Ideal) (m ((c : Thread nD τ).loc main_arg1))) (m ((c : Thread nD τ).loc main_arg5)) := by
  rw [w5_v89, w4_v48, W4_of_ne m ρ c main_arg4 (by decide), W4_of_ne m ρ c main_v1 (by decide),
    W4_of_ne m ρ c main_v3 (by decide), W4_of_ne m ρ c main_v33 (by decide), w4_v17,
    W4_of_ne m ρ c main_arg5 (by decide), w3_arg4, w3_v1, w3_v3, w3_v33, w3_v17, w3_arg5]

end Cert.KernelIdeal.Boundaries

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.LibVecScatter.lean ====
/-
  A VECTOR ACCUMULATED THROUGH AN INDEX COLUMN, AT AN ENTRY.

  The host's accumulating scatter of a vector of `E` updates into a vector of `N` entries, through a column of `E`
  integer words held as an `[E, 1]` array (what `zeros(N).at[idx].add(u)` lowers to, a segment sum of scalars): over the
  extended reals, entry `i` of the result is the operand's entry plus the sum of the updates `e` whose word, read as a
  signed integer and NOT clamped, is `i`; a word outside `[0, N)` drops its update. The landing entry is the one of the
  row scatter of a table with the same index column (`Cert.LibAggRows.dstRow?`), so a count of the rows landing on a
  row — the scatter of ones — and a sum of table rows landing there range over the same set of updates.
  Every statement is over the extents `N`, `E` and the word width `w` as variables.
-/
import Idealize.ShloMosaic.PureOps.Ideal
import Idealize.ShloMosaic.Lib.ValueIdx
import proofs.«166927_j48859547959538_2_alg».proof.Proof.LibAggRows

noncomputable section

open scoped BigOperators

namespace Cert.LibVecScatter

open Idealize.ShloMosaic Idealize.ShloMosaic.ValueIdx Cert.LibAggRows

/-- The vector scatter's dimension numbers for an operand `[N]`, scatter indices `[E, 1]` and updates `[E]`: no
    window axis, the operand's one axis inserted and named by the scatter index, the index vector along the scatter
    indices' axis 1. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the `e`-th scatter index, read signed. -/
theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate there is `0`. -/
theorem vecScatter_window {N E : Nat} (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg]
  show (0 : Fin 1) ∉ Shape.kept ⟨1, ![N]⟩ [0]
  simp [Shape.kept]

/-- Two rank-1 indices with equal coordinates are equal. -/
theorem idx1_ext {n : Nat} (f g : (⟨1, ![n]⟩ : Shape).Idx) (h : f 0 = g 0) : f = g := by
  rw [eq_ix1 f, eq_ix1 g, h]

/-- THE LANDING ENTRY of update `e`: the entry `dstRow? N idx e`, when there is one. -/
theorem vecScatter_resultIdx? {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (dstRow? N idx e).map (fun r => ix1 r) := by
  have hs := vecScatter_start wf idx e
  have hw := vecScatter_window wf e
  unfold ScatterDims.resultIdx? dstRow?
  by_cases h : 0 ≤ (idx (ix2 e (0 : Fin 1))).toInt ∧ (idx (ix2 e (0 : Fin 1))).toInt < (N : Int)
  · have hall : ∀ a, 0 ≤ (vecScatterDims N E wf).start (ix1 e) idx a + (vecScatterDims N E wf).window (ix1 e) a ∧
        (vecScatterDims N E wf).start (ix1 e) idx a + (vecScatterDims N E wf).window (ix1 e) a
          < (⟨1, ![N]⟩ : Shape).size a := by
      intro a
      obtain rfl : a = 0 := Subsingleton.elim _ _
      rw [hs, hw]
      exact ⟨by simpa using h.1, by simpa using h.2⟩
    rw [dif_pos hall, dif_pos h, Option.map_some]
    refine congrArg some (idx1_ext _ _ (Fin.ext ?_))
    show ((vecScatterDims N E wf).start (ix1 e) idx 0 + (vecScatterDims N E wf).window (ix1 e) 0).toNat
      = (idx (ix2 e (0 : Fin 1))).toInt.toNat
    rw [hs, hw]; simp
  · rw [dif_neg h, dif_neg]
    · rfl
    · intro hall
      have h0 := hall 0
      rw [hs, hw] at h0
      exact h (by simpa using h0)

/-- An update `j` lands on entry `i` exactly when its scatter index is `i`. -/
theorem vecScatter_resultIdx?_eq_some {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : Fin N) :
    (vecScatterDims N E wf).resultIdx? j idx = some (ix1 i) ↔ dstRow? N idx (j 0) = some i := by
  obtain ⟨e, rfl⟩ : ∃ e, j = ix1 e := ⟨j 0, eq_ix1 j⟩
  show _ ↔ dstRow? N idx e = some i
  rw [vecScatter_resultIdx? wf idx e, Option.map_eq_some_iff]
  constructor
  · rintro ⟨r, hr, hri⟩
    have h0 : r = i := congrFun hri 0
    rw [hr, h0]
  · intro hr
    exact ⟨i, hr, rfl⟩

/-- THE VECTOR SCATTER-ADD READ AT `i`: the operand's entry plus the sum of the updates `e` whose scatter index (read
    signed, not clamped) is `i`. -/
theorem vecScatterAdd_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (F := Ideal) (vecScatterDims N E wf) x idx upd (ix1 i)
      = x (ix1 i) + ∑ e ∈ Finset.univ.filter (fun e : Fin E => dstRow? N idx e = some i), upd (ix1 e) := by
  show x (ix1 i) + ∑ j ∈ Finset.univ.filter (fun j => (vecScatterDims N E wf).resultIdx? j idx = some (ix1 i)), upd j = _
  congr 1
  refine Finset.sum_nbij' (fun j => j 0) (fun e => ix1 e) ?_ ?_ ?_ ?_ ?_
  · intro j hj
    rw [Finset.mem_filter] at hj
    exact Finset.mem_filter.mpr ⟨Finset.mem_univ _, (vecScatter_resultIdx?_eq_some wf idx j i).mp hj.2⟩
  · intro e he
    rw [Finset.mem_filter] at he
    exact Finset.mem_filter.mpr ⟨Finset.mem_univ _, (vecScatter_resultIdx?_eq_some wf idx (ix1 e) i).mpr he.2⟩
  · intro j _; exact (eq_ix1 j).symm
  · intro e _; rfl
  · intro j _; exact congrArg upd (eq_ix1 j)

end Cert.LibVecScatter

end
-- ==== Proof.LibVecGather.lean ====
/-
  A gather of single entries of a vector. The operand is a vector of N entries, the start indices are a column of E
  words, and the result is a vector of E entries: entry e of the result is the operand's entry at the e-th word, read
  as a signed integer and clamped into [0, N - 1] (a negative word reads entry 0, a word at or above N reads entry
  N - 1). This is what x[idx] lowers to for a vector x and a vector of indices laid out as a column.
  Stated over literal-free extents N and E and any word width.
-/
import Idealize.ShloMosaic.PureOps.Ideal
import Idealize.ShloMosaic.Lib.ValueIdx
import proofs.«166927_j48859547959538_2_alg».proof.Proof.LibAggRows

noncomputable section

namespace Cert.LibVecGather

open Idealize.ShloMosaic Idealize.ShloMosaic.ValueIdx Cert.LibAggRows

variable {α : Type}

/-- The vector gather's dimension numbers for an operand of N entries, start indices laid out as E rows of one word
    and a result of E entries: no offset axis, the operand's one axis collapsed and named by the start index, the index
    vector along the start indices' axis 1, slices of one entry. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather read at entry e: the operand at the e-th start index, read signed and clamped into
    [0, N - 1] — the same row number a gather of whole rows of a table reads at row e. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (srcRow N hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVecGather

end
-- ==== Proof.LibColumnVector.lean ====
/-
  A vector of n entries and a matrix of n rows and one column that hold the same numbers, entry r of the vector being
  entry (r, 0) of the column. The relation is kept by everything a width-one layer of a graph network does: gathering
  entries at a column of row numbers, adding updates into the entries the row numbers name, multiplying and adding entry by
  entry; and it holds at the start between a column and the vector it is reshaped to, and between a vector and the column
  it is laid out as. So a computation carried out on vectors and the same computation carried out on one-column matrices
  agree entry by entry. Everything here is over literal-free extents.
-/
import Idealize.ShloMosaic.PureOps.Ideal
import Idealize.ShloMosaic.Lib.ValueIdx
import Idealize.ShloMosaic.Lib.ValueLayout
import Idealize.ShloMosaic.Lib.Pipeline.Value
import proofs.«166927_j48859547959538_2_alg».proof.Proof.LibAggRows
import proofs.«166927_j48859547959538_2_alg».proof.Proof.LibVecScatter
import proofs.«166927_j48859547959538_2_alg».proof.Proof.LibVecGather
import proofs.«166927_j48859547959538_2_alg».proof.Proof.LibKeepdims

noncomputable section

open scoped BigOperators

namespace Cert.ColumnVector

open Idealize.ShloMosaic Idealize.ShloMosaic.ValueIdx Cert.LibAggRows Cert.LibVecScatter Cert.LibVecGather

/-- The vector g holds the entries of the one-column matrix f. -/
def IsCol {α : Type} {n : ℕ} (g : (⟨1, ![n]⟩ : Shape).Idx → α) (f : (⟨2, ![n, 1]⟩ : Shape).Idx → α) : Prop :=
  ∀ r : Fin n, g (ix1 r) = f (ix2 r (0 : Fin 1))

section Layouts
variable {α : Type} {n : ℕ}

/-- A column reshaped to a vector reads, at r, the column's entry (r, 0): both are the r-th in row-major order. -/
theorem shapeCast_a1_a_apply (x : (⟨2, ![n, 1]⟩ : Shape).Idx → α) (h : (⟨2, ![n, 1]⟩ : Shape).ShapeCasts ⟨1, ![n]⟩)
    (i : Fin n) : shapeCast ⟨1, ![n]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The vector a column is reshaped to holds the column's entries. -/
theorem isCol_of_cast (f : (⟨2, ![n, 1]⟩ : Shape).Idx → α) (h : (⟨2, ![n, 1]⟩ : Shape).ShapeCasts ⟨1, ![n]⟩) :
    IsCol (shapeCast ⟨1, ![n]⟩ f h) f := fun r => shapeCast_a1_a_apply f h r

/-- A vector laid out as a column along axis 0 reads, at (r, 0), the vector's entry r. -/
theorem bcast_vec_col_apply (g : (⟨1, ![n]⟩ : Shape).Idx → α) (hb : (⟨1, ![n]⟩ : Shape).BroadcastsInDim ⟨2, ![n, 1]⟩ ![0])
    (r : Fin n) (u : Fin 1) : broadcastInDim ⟨2, ![n, 1]⟩ ![0] hb g (ix2 r u) = g (ix1 r) := by
  refine broadcastInDim_apply ![0] hb g (ix2 r u) (ix1 r) fun ax => ?_
  match ax with
  | ⟨0, _⟩ =>
    show r.val = if n = 1 then 0 else r.val
    split
    · have := r.isLt; omega
    · rfl

/-- A vector holds the entries of the column it is laid out as. -/
theorem isCol_of_bcast (g : (⟨1, ![n]⟩ : Shape).Idx → α) (hb : (⟨1, ![n]⟩ : Shape).BroadcastsInDim ⟨2, ![n, 1]⟩ ![0]) :
    IsCol g (broadcastInDim ⟨2, ![n, 1]⟩ ![0] hb g) := fun r => (bcast_vec_col_apply g hb r 0).symm

/-- A vector laid out as a column and reshaped back is the vector. -/
theorem cast_bcast_apply (g : (⟨1, ![n]⟩ : Shape).Idx → α) (hb : (⟨1, ![n]⟩ : Shape).BroadcastsInDim ⟨2, ![n, 1]⟩ ![0])
    (h : (⟨2, ![n, 1]⟩ : Shape).ShapeCasts ⟨1, ![n]⟩) (r : Fin n) :
    shapeCast ⟨1, ![n]⟩ (broadcastInDim ⟨2, ![n, 1]⟩ ![0] hb g) h (ix1 r) = g (ix1 r) := by
  rw [shapeCast_a1_a_apply, bcast_vec_col_apply]

/-- One scalar spread over a vector and over a column gives arrays that hold the same entries. -/
theorem isCol_of_scalar (s : (⟨0, ![]⟩ : Shape).Idx → α) (h1 : (⟨0, ![]⟩ : Shape).BroadcastsInDim ⟨1, ![n]⟩ ![])
    (h2 : (⟨0, ![]⟩ : Shape).BroadcastsInDim ⟨2, ![n, 1]⟩ ![]) :
    IsCol (broadcastInDim ⟨1, ![n]⟩ ![] h1 s) (broadcastInDim ⟨2, ![n, 1]⟩ ![] h2 s) := fun r => by
  rw [broadcastInDim_apply ![] h1 s (ix1 r) (fun a => a.elim0) (fun a => a.elim0),
    broadcastInDim_apply ![] h2 s (ix2 r (0 : Fin 1)) (fun a => a.elim0) (fun a => a.elim0)]

end Layouts

section Indexed
variable {N E w : ℕ}

/-- Gathering entries of a vector and gathering rows of the column that holds the same entries, at one column of row
    numbers, give a vector and a column that hold the same entries: both read the row number signed and clamped. -/
theorem isCol_gather {α : Type} (hN : 0 < N)
    (wfv : GatherDims.WF ⟨1, ![N]⟩ ⟨2, ![E, 1]⟩ ⟨1, ![E]⟩ [] [0] [] [0] [] 1 ![1])
    (wfr : GatherDims.WF ⟨2, ![N, 1]⟩ ⟨2, ![E, 1]⟩ ⟨2, ![E, 1]⟩ [1] [0] [] [0] [] 1 ![1, 1])
    {g : (⟨1, ![N]⟩ : Shape).Idx → α} {f : (⟨2, ![N, 1]⟩ : Shape).Idx → α} (h : IsCol g f) (idx : IVec ⟨2, ![E, 1]⟩ w) :
    IsCol (Host.gather (vecGatherDims N E wfv) g idx) (Host.gather (rowGatherDims N E 1 wfr) f idx) := fun e => by
  rw [vecGather_apply hN wfv g idx e, rowGather_apply hN wfr f idx e (0 : Fin 1)]
  exact h _

/-- Adding a vector of updates into a vector and adding the column of the same updates into the column of the same
    entries, through one column of row numbers, give a vector and a column that hold the same entries: both add, at row i,
    the updates whose row number read signed is i. -/
theorem isCol_scatterAdd
    (wfv : ScatterDims.WF ⟨1, ![N]⟩ ⟨2, ![E, 1]⟩ ⟨1, ![E]⟩ [] [0] [0] 1)
    (wfr : ScatterDims.WF ⟨2, ![N, 1]⟩ ⟨2, ![E, 1]⟩ ⟨2, ![E, 1]⟩ [1] [0] [0] 1)
    {x : FVec Ideal ⟨1, ![N]⟩ .f32} {X : FVec Ideal ⟨2, ![N, 1]⟩ .f32} (hx : IsCol x X)
    {u : FVec Ideal ⟨1, ![E]⟩ .f32} {U : FVec Ideal ⟨2, ![E, 1]⟩ .f32} (hu : IsCol u U) (idx : IVec ⟨2, ![E, 1]⟩ w) :
    IsCol (Host.scatterAdd (F := Ideal) (vecScatterDims N E wfv) x idx u)
      (Host.scatterAdd (F := Ideal) (rowScatterDims N E 1 wfr) X idx U) := fun i => by
  rw [vecScatterAdd_apply wfv x idx u i, rowScatterAdd_apply wfr X idx U i (0 : Fin 1), hx i]
  exact congrArg (X (ix2 i (0 : Fin 1)) + ·) (Finset.sum_congr rfl fun e _ => hu e)

end Indexed

section Pointwise
variable {n : ℕ}

/-- Entrywise products of arrays that hold the same entries hold the same entries. -/
theorem isCol_mulf {g g' : FVec Ideal ⟨1, ![n]⟩ .f32} {f f' : FVec Ideal ⟨2, ![n, 1]⟩ .f32} (h : IsCol g f) (h' : IsCol g' f') :
    IsCol (mulf g g') (mulf f f') := fun r => by
  show FloatOps.mulf (g (ix1 r)) (g' (ix1 r)) = FloatOps.mulf (f (ix2 r 0)) (f' (ix2 r 0))
  rw [h r, h' r]

/-- Entrywise sums of arrays that hold the same entries hold the same entries. -/
theorem isCol_addf {g g' : FVec Ideal ⟨1, ![n]⟩ .f32} {f f' : FVec Ideal ⟨2, ![n, 1]⟩ .f32} (h : IsCol g f) (h' : IsCol g' f') :
    IsCol (addf g g') (addf f f') := fun r => by
  show FloatOps.addf (g (ix1 r)) (g' (ix1 r)) = FloatOps.addf (f (ix2 r 0)) (f' (ix2 r 0))
  rw [h r, h' r]

end Pointwise

end Cert.ColumnVector

end
-- ==== Proof.WidthOne.lean ====
/-
  The second layer and the decoding of the edges: the kernel's program works on vectors, the reference on matrices of
  one column, and the two agree entry by entry. The hidden array h = z W has one column; the kernel reshapes it to a
  vector. From there every step keeps "the vector holds the column's entries": the gather of h at the edges' sources,
  the product with the edge weights, the sum into the destinations, the node's own term h q, the bias. At the end the
  reference sums its one-column product along the column axis, a sum of ONE term started from zero, which is that term;
  both programs then apply the logistic function 1 / (1 + exp (-t)) to the same number.
  The normalisation, the edge weights and the wrapped row numbers are computed twice by the reference, once per layer, by
  the same operations of the same index array: the two copies are one value.
-/
import proofs.«166927_j48859547959538_2_alg».proof.Proof.Gen.ReferenceIdeal.Read
import proofs.«166927_j48859547959538_2_alg».proof.Proof.VectorLayer
import proofs.«166927_j48859547959538_2_alg».proof.Proof.LibColumnVector
import Idealize.ShloMosaic.PureOps.Ideal.Laws
import Idealize.ShloMosaic.Lib.Pipeline.Value
import Idealize.ShloMosaic.Lib.ValueIdx

set_option maxRecDepth 16384

noncomputable section

open scoped BigOperators

namespace Cert.WidthOne

open Idealize.ShloMosaic Idealize.ShloMosaic.ValueIdx Cert.ColumnVector Cert.ReferenceIdeal.Read Cert.KernelIdeal.VectorLayer

variable (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
  (x3 : (⟨Cert.ReferenceIdeal.S128, .f32⟩ : BufTy).Contents (Elt Ideal)) (x4 : (⟨Cert.ReferenceIdeal.S128x1, .f32⟩ : BufTy).Contents (Elt Ideal)) (x5 : (⟨Cert.ReferenceIdeal.S1, .f32⟩ : BufTy).Contents (Elt Ideal))

/-- A gather of a vector's entries by the kernel's program and a gather of the rows of the column that holds the same
    entries by the reference, at one column of row numbers, hold the same entries. -/
theorem gather_col {g : (⟨Cert.ReferenceIdeal.S50000, .f32⟩ : BufTy).Contents (Elt Ideal)} {f : (⟨Cert.ReferenceIdeal.S50000x1, .f32⟩ : BufTy).Contents (Elt Ideal)} (h : IsCol (α := EReal) (n := 50000) g f) (idx : (⟨Cert.ReferenceIdeal.S800000x1, .i32⟩ : BufTy).Contents (Elt Ideal)) :
    IsCol (α := EReal) (n := 800000) (Host.gather Cert.KernelIdeal.gather_S50000_S800000x1_S800000_n_0_n_n_0_1_1 g idx) (Host.gather Cert.ReferenceIdeal.gather_S50000x1_S800000x1_S800000x1_1_0_n_n_0_1_11 f idx) :=
  isCol_gather (N := 50000) (E := 800000) (by decide) (Cert.KernelIdeal.gather_S50000_S800000x1_S800000_n_0_n_n_0_1_1).wf (Cert.ReferenceIdeal.gather_S50000x1_S800000x1_S800000x1_1_0_n_n_0_1_11).wf h idx

/-- The same for the two programs' sums of updates into the rows the row numbers name. -/
theorem scatter_col {x : (⟨Cert.ReferenceIdeal.S50000, .f32⟩ : BufTy).Contents (Elt Ideal)} {X : (⟨Cert.ReferenceIdeal.S50000x1, .f32⟩ : BufTy).Contents (Elt Ideal)} (hx : IsCol (α := EReal) (n := 50000) x X)
    {u : (⟨Cert.ReferenceIdeal.S800000, .f32⟩ : BufTy).Contents (Elt Ideal)} {U : (⟨Cert.ReferenceIdeal.S800000x1, .f32⟩ : BufTy).Contents (Elt Ideal)} (hu : IsCol (α := EReal) (n := 800000) u U) (idx : (⟨Cert.ReferenceIdeal.S800000x1, .i32⟩ : BufTy).Contents (Elt Ideal)) :
    IsCol (α := EReal) (n := 50000) (Host.scatterAdd (F := Ideal) (φ := .f32) Cert.KernelIdeal.scatter_S50000_S800000x1_S800000_n_0_0_1 x idx u) (Host.scatterAdd (F := Ideal) (φ := .f32) Cert.ReferenceIdeal.scatter_S50000x1_S800000x1_S800000x1_1_0_0_1 X idx U) :=
  isCol_scatterAdd (N := 50000) (E := 800000) (Cert.KernelIdeal.scatter_S50000_S800000x1_S800000_n_0_0_1).wf (Cert.ReferenceIdeal.scatter_S50000x1_S800000x1_S800000x1_1_0_0_1).wf hx hu idx

/-- The kernel's hidden vector holds the entries of the reference's hidden column. -/
theorem hidden_col : IsCol (α := EReal) (n := 50000) (hidden (val_main_v53 (F := Ideal) x0 x1 x2 x3) x4) (val_main_v54 (F := Ideal) x0 x1 x2 x3 x4) :=
  isCol_of_cast (n := 50000) (val_main_v54 (F := Ideal) x0 x1 x2 x3 x4) _

/-- The reference computes the edge weights once per layer, by the same operations of the same index array: one array. -/
theorem weights_twice : val_main_v81 (F := Ideal) x1 = val_main_v31 (F := Ideal) x1 := rfl

/-- Likewise the squared normalisation. -/
theorem squares_twice : val_main_v94 (F := Ideal) x1 = val_main_v45 (F := Ideal) x1 := rfl

/-- The edge weights: the kernel reshapes the column it made of them back to a vector, the reference lays its second
    copy of them out as a column. -/
theorem weight_col : IsCol (α := EReal) (n := 800000) (shapeCast Cert.KernelIdeal.S800000 (val_main_v39 (F := Ideal) x1) Cert.KernelIdeal.Gen.shapeCasts_S800000x1_S800000)
    (val_main_v89 (F := Ideal) x1) := fun e => by
  show shapeCast ⟨1, ![800000]⟩ (broadcastInDim ⟨2, ![800000, 1]⟩ ![0] _ (val_main_v31 (F := Ideal) x1)) _ (ix1 e)
    = broadcastInDim ⟨2, ![800000, 1]⟩ ![0] _ (val_main_v81 (F := Ideal) x1) (ix2 e (0 : Fin 1))
  rw [cast_bcast_apply, bcast_vec_col_apply, weights_twice]

/-- The squared normalisation, likewise. -/
theorem square_col : IsCol (α := EReal) (n := 50000) (shapeCast Cert.KernelIdeal.S50000 (val_main_v46 (F := Ideal) x1) Cert.KernelIdeal.Gen.shapeCasts_S50000x1_S50000)
    (val_main_v95 (F := Ideal) x1) := fun r => by
  show shapeCast ⟨1, ![50000]⟩ (broadcastInDim ⟨2, ![50000, 1]⟩ ![0] _ (val_main_v45 (F := Ideal) x1)) _ (ix1 r)
    = broadcastInDim ⟨2, ![50000, 1]⟩ ![0] _ (val_main_v94 (F := Ideal) x1) (ix2 r (0 : Fin 1))
  rw [cast_bcast_apply, bcast_vec_col_apply, squares_twice]

/-- The messages along the edges. -/
theorem message_col :
    IsCol (α := EReal) (n := 800000) (mulf (F := Ideal) (φ := .f32) (Host.gather Cert.KernelIdeal.gather_S50000_S800000x1_S800000_n_0_n_n_0_1_1 (hidden (val_main_v53 (F := Ideal) x0 x1 x2 x3) x4) (wrap (val_main_v1 (F := Ideal) x1)))
        (shapeCast Cert.KernelIdeal.S800000 (val_main_v39 (F := Ideal) x1) Cert.KernelIdeal.Gen.shapeCasts_S800000x1_S800000))
      (val_main_v90 (F := Ideal) x0 x1 x2 x3 x4) :=
  isCol_mulf (gather_col (hidden_col x0 x1 x2 x3 x4) _) (weight_col x1)

/-- The zero arrays the messages are added into. -/
theorem zero_col : IsCol (α := EReal) (n := 50000) (broadcastInDim Cert.KernelIdeal.S50000 ![] Cert.KernelIdeal.Gen.bcast_S_S50000 (constant (F := Ideal) Cert.KernelIdeal.S_ .f32 0x00000000#32))
    (val_main_v91 (F := Ideal)) :=
  isCol_of_scalar (n := 50000) (constant (F := Ideal) Cert.KernelIdeal.S_ .f32 0x00000000#32) _ _

/-- An array of one entry has one index. -/
theorem one_entry (p q : (⟨1, ![1]⟩ : Shape).Idx) : p = q := by
  rw [eq_ix1 p, eq_ix1 q]
  exact congrArg ix1 (Subsingleton.elim (α := Fin 1) _ _)

/-- The bias: one number, spread over the nodes. -/
theorem bias_col : IsCol (α := EReal) (n := 50000) (broadcastInDim Cert.KernelIdeal.S50000 ![] Cert.KernelIdeal.Gen.bcast_S_S50000
      (shapeCast Cert.KernelIdeal.S_ x5 Cert.KernelIdeal.Gen.shapeCasts_S1_S_))
    (val_main_v99 (F := Ideal) x5) := fun r => by
  rw [val_main_v99_apply, val_main_v98_apply]
  refine (broadcastInDim_apply _ _ _ (ix1 r) (fun a => a.elim0) (fun a => a.elim0)).trans ?_
  unfold shapeCast
  exact congrArg x5 (one_entry _ _)

/-- The layer's result on the nodes. -/
theorem layer_col : IsCol (α := EReal) (n := 50000) (layer (val_main_v53 (F := Ideal) x0 x1 x2 x3) x4 (val_main_v1 (F := Ideal) x1) (val_main_v3 (F := Ideal) x1) (val_main_v39 (F := Ideal) x1) (val_main_v46 (F := Ideal) x1) x5) (val_main_v100 (F := Ideal) x0 x1 x2 x3 x4 x5) :=
  isCol_addf
    (isCol_addf (scatter_col (zero_col) (message_col x0 x1 x2 x3 x4) _) (isCol_mulf (hidden_col x0 x1 x2 x3 x4) (square_col x1)))
    (bias_col x5)

/-- The product of the layer's results at an edge's two end points. -/
theorem logit_col :
    IsCol (α := EReal) (n := 800000) (mulf (F := Ideal) (φ := .f32) (Host.gather Cert.KernelIdeal.gather_S50000_S800000x1_S800000_n_0_n_n_0_1_1 (layer (val_main_v53 (F := Ideal) x0 x1 x2 x3) x4 (val_main_v1 (F := Ideal) x1) (val_main_v3 (F := Ideal) x1) (val_main_v39 (F := Ideal) x1) (val_main_v46 (F := Ideal) x1) x5) (wrap (val_main_v1 (F := Ideal) x1))) (Host.gather Cert.KernelIdeal.gather_S50000_S800000x1_S800000_n_0_n_n_0_1_1 (layer (val_main_v53 (F := Ideal) x0 x1 x2 x3) x4 (val_main_v1 (F := Ideal) x1) (val_main_v3 (F := Ideal) x1) (val_main_v39 (F := Ideal) x1) (val_main_v46 (F := Ideal) x1) x5) (wrap (val_main_v3 (F := Ideal) x1))))
      (val_main_v115 (F := Ideal) x0 x1 x2 x3 x4 x5) :=
  isCol_mulf (gather_col (layer_col x0 x1 x2 x3 x4 x5) _) (gather_col (layer_col x0 x1 x2 x3 x4 x5) _)

/-- The reference's sum along the column axis is its one term. -/
theorem sum_one (e : Fin 800000) :
    val_main_v116 (F := Ideal) x0 x1 x2 x3 x4 x5 (ix1 e) = val_main_v115 (F := Ideal) x0 x1 x2 x3 x4 x5 (ix2 e (0 : Fin 1)) := by
  rw [val_main_v116_apply, Fin.sum_univ_one]
  rw [show val_main_cst_26 (F := Ideal) (Shape.Idx.first Cert.ReferenceIdeal.Gen.h_S_) = (0 : EReal) from Ideal.ofBits_zero_f32, zero_add]
  exact congrArg (val_main_v115 (F := Ideal) x0 x1 x2 x3 x4 x5) (funext fun a => Fin.ext (by match a with | ⟨0, _⟩ => rfl | ⟨1, _⟩ => rfl))

/-- The decoded edges of the two programs are one array. -/
theorem decode_eq : decode (val_main_v53 (F := Ideal) x0 x1 x2 x3) x4 (val_main_v1 (F := Ideal) x1) (val_main_v3 (F := Ideal) x1) (val_main_v39 (F := Ideal) x1) (val_main_v46 (F := Ideal) x1) x5 = val_main_v122 (F := Ideal) x0 x1 x2 x3 x4 x5 := by
  have hL : mulf (F := Ideal) (φ := .f32) (Host.gather Cert.KernelIdeal.gather_S50000_S800000x1_S800000_n_0_n_n_0_1_1 (layer (val_main_v53 (F := Ideal) x0 x1 x2 x3) x4 (val_main_v1 (F := Ideal) x1) (val_main_v3 (F := Ideal) x1) (val_main_v39 (F := Ideal) x1) (val_main_v46 (F := Ideal) x1) x5) (wrap (val_main_v1 (F := Ideal) x1))) (Host.gather Cert.KernelIdeal.gather_S50000_S800000x1_S800000_n_0_n_n_0_1_1 (layer (val_main_v53 (F := Ideal) x0 x1 x2 x3) x4 (val_main_v1 (F := Ideal) x1) (val_main_v3 (F := Ideal) x1) (val_main_v39 (F := Ideal) x1) (val_main_v46 (F := Ideal) x1) x5) (wrap (val_main_v3 (F := Ideal) x1)))
      = val_main_v116 (F := Ideal) x0 x1 x2 x3 x4 x5 := by
    funext i
    obtain ⟨e, rfl⟩ : ∃ e : Fin 800000, i = ix1 e := ⟨i 0, eq_ix1 i⟩
    exact (logit_col x0 x1 x2 x3 x4 x5 e).trans (sum_one x0 x1 x2 x3 x4 x5 e).symm
  unfold decode
  rw [hL]
  rfl

end Cert.WidthOne

end
-- ==== Proof.lean ====
/-
  A two-layer graph convolution that scores edges. With s(e) and d(e) the end points of edge e, deg(n) one plus the number
  of edges into n, r = 1 / sqrt deg, and the edge weight w(e) = r(s(e)) r(d(e)):
    h1 = x W1                                                    [50000, 128]
    z1(n, :) = max(sum over the edges e into n of h1(s(e), :) w(e) + h1(n, :) r(n)^2 + b1, 0)
    h2 = z1 W2                                                   [50000, 1]
    z2(n) = sum over the edges e into n of h2(s(e)) w(e) + h2(n) r(n)^2 + b2
    out(e) = 1 / (1 + exp (-(z2(s(e)) z2(d(e)))))
  The kernel's program computes h1 and z1 in two regions of ten row blocks each, the gathers and the sums into rows on the
  host between them, and the second layer on VECTORS; the reference computes everything on the host, the second layer on
  matrices of one column, and sums its last product along the column axis. Over the extended reals the two are one
  function of the arguments, and no law beyond 0 + t = t is needed, so the precondition is never opened:
   * each region's output array is one whole-array function of its input arrays (the product; the rectified sum),
   * every buffer a later stretch reads is the reference's own stage of the same arguments,
   * a vector and a one-column matrix with the same entries stay so through gathers, sums into rows and arithmetic.
  The rewrite ledger is empty, so the idealized kernel is the kernel's own text read over the extended reals.
-/
import proofs.«166927_j48859547959538_2_alg».proof.Defs
import proofs.«166927_j48859547959538_2_alg».proof.Proof.Gen.Kernel
import proofs.«166927_j48859547959538_2_alg».proof.Proof.Gen.Kernel.Skeleton
import proofs.«166927_j48859547959538_2_alg».proof.Proof.Gen.Kernel.Launch
import proofs.«166927_j48859547959538_2_alg».proof.Proof.Gen.Kernel.Points
import proofs.«166927_j48859547959538_2_alg».proof.Proof.Gen.Kernel.Frame
import proofs.«166927_j48859547959538_2_alg».proof.Proof.Gen.KernelIdeal
import proofs.«166927_j48859547959538_2_alg».proof.Proof.Gen.KernelIdeal.Skeleton
import proofs.«166927_j48859547959538_2_alg».proof.Proof.Gen.KernelIdeal.Launch
import proofs.«166927_j48859547959538_2_alg».proof.Proof.Gen.KernelIdeal.Points
import proofs.«166927_j48859547959538_2_alg».proof.Proof.Gen.KernelIdeal.Frame
import proofs.«166927_j48859547959538_2_alg».proof.Proof.Gen.ReferenceIdeal
import proofs.«166927_j48859547959538_2_alg».proof.Proof.Gen.Pre_finite_inputs
import proofs.«166927_j48859547959538_2_alg».proof.Proof.Gen.ReferenceIdeal.Run
import proofs.«166927_j48859547959538_2_alg».proof.Proof.Gen.ReferenceIdeal.Read
import proofs.«166927_j48859547959538_2_alg».proof.Proof.KernelRun
import proofs.«166927_j48859547959538_2_alg».proof.Proof.Boundaries
import proofs.«166927_j48859547959538_2_alg».proof.Proof.WidthOne
import Idealize.ShloMosaic.Adequacy
import Idealize.ShloMosaic.Init

noncomputable section

namespace Cert.Proof

open Idealize.ShloMosaic Idealize.SL.Sem

/-- The kernel's program, read at the word level, runs and leaves its arguments as they were. -/
theorem frame_kernel : Cert.frame_Kernel := fun m ρ _ => Cert.Kernel.Gen.frame m ρ

/-- The same program read over the extended reals runs and leaves its arguments as they were. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs run, and end with the same scores: the kernel's result
    buffer holds the width-one layer on vectors and the decoding, of values that are the reference's own stages, and
    that is the reference's result entry by entry. -/
theorem algebraic : Cert.algebraic_KernelIdeal_ReferenceIdeal := by
  intro m ρ m' ρ' _ hagree
  refine ⟨fun c => Cert.KernelIdeal.Gen.W5 m ρ c (Proc.devRef .tc Cert.KernelIdeal.main_v89),
    Cert.KernelIdeal.Run.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v122_eq, (hagree c).1, (hagree c).2.1, (hagree c).2.2.1, (hagree c).2.2.2.1,
    (hagree c).2.2.2.2.1, (hagree c).2.2.2.2.2]
  exact ((Cert.KernelIdeal.Boundaries.result_eq m ρ c).trans (Cert.WidthOne.decode_eq _ _ _ _ _ _)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
